-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x16 : Shape := ⟨2, ![4096, 16]⟩
abbrev S16x4096 : Shape := ⟨2, ![16, 4096]⟩
abbrev S4096x4096 : Shape := ⟨2, ![4096, 4096]⟩
abbrev S4096 : Shape := ⟨1, ![4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S8x2048x4096 .f32) (main_arg1 : FVec F S4096x16 .f32) (main_arg2 : FVec F S16x4096 .f32) (main_arg3 : FVec F S4096x4096 .f32) (main_arg4 : FVec F S4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x16 .f32 := Host.absf main_arg1
  let main_cst_0 : FVec F S_ .f32 := constant S_ .f32 0x7F800000#32
  let main_v5 : FVec F S4096x16 .f32 := broadcastInDim S4096x16 ![] bcast_S_S4096x16 main_cst_0
  let main_v6 : IVec S4096x16 1 := cmpf .olt main_v4 main_v5
  let main_c_1 : IVec S_ 1 := constantI S_ 1 1#1
  let main_v7 : IVec S_ 1 := (fun x v => Host.reduce IntOp.andi x v reducesTo_S4096x16_S_d0_1 h_S_) main_v6 main_c_1
  let main_v8 : IVec S_ 1 := andi main_v3 main_v7
  let main_v9 : FVec F S16x4096 .f32 := Host.absf main_arg2
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_v13 main_v16
-- ==== Kernel.lean ====
abbrev S8x2048x4096 : Shape := ⟨3, ![8, 2048, 4096]⟩
abbrev S4096x16 : Shape := ⟨2, ![4096, 16]⟩
abbrev S16x4096 : Shape := ⟨2, ![16, 4096]⟩
abbrev S4096x4096 : Shape := ⟨2, ![4096, 4096]⟩
abbrev S4096 : Shape := ⟨1, ![4096]⟩
abbrev S16384x4096 : Shape := ⟨2, ![16384, 4096]⟩
abbrev S1x4096 : Shape := ⟨2, ![1, 4096]⟩
abbrev S16384x16 : Shape := ⟨2, ![16384, 16]⟩
abbrev S1024x1024 : Shape := ⟨2, ![1024, 1024]⟩
abbrev S1024x16 : Shape := ⟨2, ![1024, 16]⟩
abbrev S16x1024 : Shape := ⟨2, ![16, 1024]⟩
abbrev S1x1024 : Shape := ⟨2, ![1, 1024]⟩

abbrev nBuf : Space → Nat
  | .hbm => 15
  | .vmem => 13
  | .smem => 0
  | _ => 0

abbrev bufTy : (tb : Table) → Fin (tcTables nBuf tb) → BufTy
  | .hbm, ⟨0, _⟩ => ⟨S8x2048x4096, .f32⟩
  | .hbm, ⟨1, _⟩ => ⟨S4096x16, .f32⟩
  | .hbm, ⟨2, _⟩ => ⟨S16x4096, .f32⟩
  | .hbm, ⟨3, _⟩ => ⟨S4096x4096, .f32⟩
  | .hbm, ⟨4, _⟩ => ⟨S4096, .f32⟩
  | .hbm, ⟨5, _⟩ => ⟨S16384x4096, .f32⟩
  | .hbm, ⟨6, _⟩ => ⟨S16384x4096, .bf16⟩
  | .hbm, ⟨7, _⟩ => ⟨S4096x4096, .f32⟩
  | .hbm, ⟨8, _⟩ => ⟨S4096x4096, .bf16⟩
  | .hbm, ⟨9, _⟩ => ⟨S16x4096, .bf16⟩
  | .hbm, ⟨10, _⟩ => ⟨S1x4096, .f32⟩
  | .hbm, ⟨11, _⟩ => ⟨S16384x16, .f32⟩
  | .hbm, ⟨12, _⟩ => ⟨S16384x16, .bf16⟩
  | .hbm, ⟨13, _⟩ => ⟨S16384x4096, .f32⟩
  | .hbm, ⟨14, _⟩ => ⟨S8x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x16, .bf16⟩
  | .local _ .vmem, ⟨5, _⟩ => ⟨S1024x16, .bf16⟩
  | .local _ .vmem, ⟨6, _⟩ => ⟨S16x1024, .bf16⟩
  | .local _ .vmem, ⟨7, _⟩ => ⟨S16x1024, .bf16⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x16 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S8x2048x4096_S16384x4096 : S8x2048x4096.ShapeCasts S16384x4096
  bitsLt_bf16_f32 : FTy.bits .bf16 < FTy.bits .f32
  transposes_S4096x4096_S4096x4096_1_0 : S4096x4096.Transposes [1, 0] S4096x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S16384x4096_S8x2048x4096 : S16384x4096.ShapeCasts S8x2048x4096
  dot_S16384x4096_S4096x16_S16384x16_1_0_0_1_n_n_wf : DotDims.WF S16384x4096 S4096x16 S16384x16 [1] [0] [0] [1] [] []
  dot_S1024x1024_S1024x1024_S1024x1024_1_0_0_1_n_n_wf : DotDims.WF S1024x1024 S1024x1024 S1024x1024 [1] [0] [0] [1] [] []
  dot_S1024x16_S16x1024_S1024x1024_1_0_0_1_n_n_wf : DotDims.WF S1024x16 S16x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x4096.size a
  hwx0_0 : ∀ i : grid0.Coords, EltTy.bits .bf16 = 32 ∨ (Rect.block (s := S16384x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S16384x16.size a
  hwx0_2 : ∀ i : grid0.Coords, EltTy.bits .bf16 = 32 ∨ (Rect.block (s := S16384x16) S1024x16.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1024.size a ≤ S16x4096.size a
  hwx0_3 : ∀ i : grid0.Coords, EltTy.bits .bf16 = 32 ∨ (Rect.block (s := S16x4096) S16x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S16384x4096.size a
  hwx0_5 : ∀ i : grid0.Coords, EltTy.bits .f32 = 32 ∨ (Rect.block (s := S16384x4096) S1024x1024.size (cc0_transform_5 i) (hinb0_5 i)).WholeWords (EltTy.packing .f32)

variable [Facts₀]

def dot_S16384x4096_S4096x16_S16384x16_1_0_0_1_n_n : DotDims S16384x4096 S4096x16 S16384x16 where
  lhsContracting := [1]
  rhsContracting := [0]
  lhsNonContracting := [0]
  rhsNonContracting := [1]
  lhsBatch := []
  rhsBatch := []
  wf := dot_S16384x4096_S4096x16_S16384x16_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S16x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8x2048x4096 : Shape := ⟨3, ![8, 2048, 4096]⟩
abbrev S4096x16 : Shape := ⟨2, ![4096, 16]⟩
abbrev S16x4096 : Shape := ⟨2, ![16, 4096]⟩
abbrev S4096x4096 : Shape := ⟨2, ![4096, 4096]⟩
abbrev S4096 : Shape := ⟨1, ![4096]⟩
abbrev S8x2048x16 : Shape := ⟨3, ![8, 2048, 16]⟩
abbrev S1x1x4096 : Shape := ⟨3, ![1, 1, 4096]⟩

abbrev nBuf : Space → Nat
  | .hbm => 12
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x16, .f32⟩
  | .hbm, ⟨2, _⟩ => ⟨S16x4096, .f32⟩
  | .hbm, ⟨3, _⟩ => ⟨S4096x4096, .f32⟩
  | .hbm, ⟨4, _⟩ => ⟨S4096, .f32⟩
  | .hbm, ⟨5, _⟩ => ⟨S8x2048x4096, .f32⟩
  | .hbm, ⟨6, _⟩ => ⟨S8x2048x16, .f32⟩
  | .hbm, ⟨7, _⟩ => ⟨S8x2048x4096, .f32⟩
  | .hbm, ⟨8, _⟩ => ⟨S8x2048x4096, .f32⟩
  | .hbm, ⟨9, _⟩ => ⟨S1x1x4096, .f32⟩
  | .hbm, ⟨10, _⟩ => ⟨S8x2048x4096, .f32⟩
  | .hbm, ⟨11, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  dot_S8x2048x4096_S4096x4096_S8x2048x4096_2_1_01_0_n_n_wf : DotDims.WF S8x2048x4096 S4096x4096 S8x2048x4096 [2] [1] [0, 1] [0] [] []
  dot_S8x2048x4096_S4096x16_S8x2048x16_2_0_01_1_n_n_wf : DotDims.WF S8x2048x4096 S4096x16 S8x2048x16 [2] [0] [0, 1] [1] [] []
  dot_S8x2048x16_S16x4096_S8x2048x4096_2_0_01_1_n_n_wf : DotDims.WF S8x2048x16 S16x4096 S8x2048x4096 [2] [0] [0, 1] [1] [] []

variable [Facts₀]

def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf
def dot_S8x2048x4096_S4096x16_S8x2048x16_2_0_01_1_n_n : DotDims S8x2048x4096 S4096x16 S8x2048x16 where
  lhsContracting := [2]
  rhsContracting := [0]
  lhsNonContracting := [0, 1]
  rhsNonContracting := [1]
  lhsBatch := []
  rhsBatch := []
  wf := dot_S8x2048x4096_S4096x16_S8x2048x16_2_0_01_1_n_n_wf
def dot_S8x2048x16_S16x4096_S8x2048x4096_2_0_01_1_n_n : DotDims S8x2048x16 S16x4096 S8x2048x4096 where
  lhsContracting := [2]
  rhsContracting := [0]
  lhsNonContracting := [0, 1]
  rhsNonContracting := [1]
  lhsBatch := []
  rhsBatch := []
  wf := dot_S8x2048x16_S16x4096_S8x2048x4096_2_0_01_1_n_n_wf

class Facts : Prop extends Facts₀ where

variable [Facts]
-- ==== Proof.Spec.lean ====
/-
  The mathematics of the certificate, with no program in sight.

  The layer computes, for every token (b, s) and output feature o,

      out[b, s, o] = ( Σ_d x[b,s,d] · W[o,d]  +  Σ_r ( Σ_d x[b,s,d] · A[d,r] ) · B[r,o] )  +  bias[o]

  over the extended reals (`G` below: the dense product, the rank-16 correction, the bias).

  The tiled computation works on the token axis flattened to M = 2048·b + s, on the transposed weight
  Wt[d,o] = W[o,d], and cuts the contraction axis d into four stretches of 1024: it starts from zero, adds the
  four partial products one after the other, then adds the low-rank correction (from the precomputed
  XA[M,r] = Σ_d X[M,d] · A[d,r]) and the bias (`K` below).  The two agree because a sum over 4096 terms is the
  sum of the four sums over its stretches — a regrouping of a finite sum in a commutative monoid, valid for all
  extended reals, infinite ones included; no distributivity and no cancellation is used.
-/
import Idealize.ShloMosaic.PureOps.Ideal
import Idealize.ShloMosaic.PureOps.Ideal.Laws
import Idealize.ShloMosaic.Lib.ValueIdx

noncomputable section

open Idealize.ShloMosaic Idealize.ShloMosaic.ValueIdx
open scoped BigOperators

namespace Cert.LoraSpec

/-- The result as one function of the five argument arrays, index by index. -/
def G (x : (⟨3, ![8, 2048, 4096]⟩ : Shape).Idx → EReal) (A : (⟨2, ![4096, 16]⟩ : Shape).Idx → EReal)
    (B : (⟨2, ![16, 4096]⟩ : Shape).Idx → EReal) (W : (⟨2, ![4096, 4096]⟩ : Shape).Idx → EReal)
    (bias : (⟨1, ![4096]⟩ : Shape).Idx → EReal) : (⟨3, ![8, 2048, 4096]⟩ : Shape).Idx → EReal :=
  fun i => (∑ d : Fin 4096, x (ix3 (i 0) (i 1) d) * W (ix2 (i 2) d)
      + ∑ r : Fin 16, (∑ d : Fin 4096, x (ix3 (i 0) (i 1) d) * A (ix2 d r)) * B (ix2 r (i 2)))
    + bias (ix1 (i 2))

/-- Position `q` of stretch `J` of an axis of 4096 cut into stretches of 1024 (reduced mod 4096, so that it is
    defined for every `J`; for `J < 4` nothing is reduced). -/
def at4096 (J : ℕ) (q : Fin 1024) : Fin 4096 := ⟨(1024 * J + q.val) % 4096, Nat.mod_lt _ (by norm_num)⟩

/-- Position `p` of stretch `I` of an axis of 16384 cut into stretches of 1024. -/
def at16384 (I : ℕ) (p : Fin 1024) : Fin 16384 := ⟨(1024 * I + p.val) % 16384, Nat.mod_lt _ (by norm_num)⟩

theorem at4096_val (J : ℕ) (q : Fin 1024) (h : J < 4) : (at4096 J q).val = 1024 * J + q.val := by
  have := q.isLt
  show (1024 * J + q.val) % 4096 = _
  omega

theorem at16384_val (I : ℕ) (p : Fin 1024) (h : I < 16) : (at16384 I p).val = 1024 * I + p.val := by
  have := p.isLt
  show (1024 * I + p.val) % 16384 = _
  omega

/-- The flattened token index M = 2048·b + s. -/
def flat (b : Fin 8) (s : Fin 2048) : Fin 16384 := ⟨2048 * b.val + s.val, by have := b.isLt; have := s.isLt; omega⟩

/-- A position on an axis of 4096 is (its stretch, its place in the stretch). -/
def stretchEquiv : Fin 4 × Fin 1024 ≃ Fin 4096 where
  toFun y := ⟨1024 * y.1.val + y.2.val, by have := y.1.isLt; have := y.2.isLt; omega⟩
  invFun D := (⟨D.val / 1024, by have := D.isLt; omega⟩, ⟨D.val % 1024, Nat.mod_lt _ (by norm_num)⟩)
  left_inv y := by
    have := y.1.isLt; have := y.2.isLt
    refine Prod.ext (Fin.ext ?_) (Fin.ext ?_)
    · show (1024 * y.1.val + y.2.val) / 1024 = y.1.val; omega
    · show (1024 * y.1.val + y.2.val) % 1024 = y.2.val; omega
  right_inv D := by
    refine Fin.ext ?_
    show 1024 * (D.val / 1024) + D.val % 1024 = D.val; omega

/-- THE LAW: the sum over an axis of 4096 is the sum, over its four stretches, of the sums over each stretch. -/
theorem sum_stretches {M : Type*} [AddCommMonoid M] (f : Fin 4096 → M) :
    ∑ s ∈ Finset.range 4, ∑ d : Fin 1024, f (at4096 s d) = ∑ D : Fin 4096, f D := by
  rw [Finset.sum_range, ← Equiv.sum_comp stretchEquiv f, Fintype.sum_prod_type]
  refine Finset.sum_congr rfl fun s _ => Finset.sum_congr rfl fun d _ => congrArg f (Fin.ext ?_)
  exact at4096_val s.val d s.isLt

/-- The partial dense product after the first `n` stretches of the contraction axis, for row `M` of `X` and column
    `O` of `Wt`: it starts from zero. -/
def partialDot (X : (⟨2, ![16384, 4096]⟩ : Shape).Idx → EReal) (Wt : (⟨2, ![4096, 4096]⟩ : Shape).Idx → EReal)
    (M : Fin 16384) (O : Fin 4096) (n : ℕ) : EReal :=
  0 + ∑ s ∈ Finset.range n, ∑ d : Fin 1024, X (ix2 M (at4096 s d)) * Wt (ix2 (at4096 s d) O)

/-- One more stretch adds its partial product. -/
theorem partialDot_succ (X : (⟨2, ![16384, 4096]⟩ : Shape).Idx → EReal) (Wt : (⟨2, ![4096, 4096]⟩ : Shape).Idx → EReal)
    (M : Fin 16384) (O : Fin 4096) (n : ℕ) :
    partialDot X Wt M O (n + 1)
      = partialDot X Wt M O n + ∑ d : Fin 1024, X (ix2 M (at4096 n d)) * Wt (ix2 (at4096 n d) O) := by
  unfold partialDot
  rw [Finset.sum_range_succ, add_assoc]

/-- The tiled computation's whole result, on the flattened token axis, from the arrays the tiles are cut from. -/
def K (X : (⟨2, ![16384, 4096]⟩ : Shape).Idx → EReal) (Wt : (⟨2, ![4096, 4096]⟩ : Shape).Idx → EReal)
    (XA : (⟨2, ![16384, 16]⟩ : Shape).Idx → EReal) (Bb : (⟨2, ![16, 4096]⟩ : Shape).Idx → EReal)
    (b2 : (⟨2, ![1, 4096]⟩ : Shape).Idx → EReal) : (⟨2, ![16384, 4096]⟩ : Shape).Idx → EReal :=
  fun j => (partialDot X Wt (j 0) (j 1) 4 + ∑ r : Fin 16, XA (ix2 (j 0) r) * Bb (ix2 r (j 1)))
    + b2 (ix2 (0 : Fin 1) (j 1))

/-- The tiled result, read at the flattened token, is the layer's result: the four stretches regroup to the whole
    contraction (`sum_stretches`), the transposed weight and the flattened activations are re-indexings. -/
theorem K_eq_G (x : (⟨3, ![8, 2048, 4096]⟩ : Shape).Idx → EReal) (A : (⟨2, ![4096, 16]⟩ : Shape).Idx → EReal)
    (B : (⟨2, ![16, 4096]⟩ : Shape).Idx → EReal) (W : (⟨2, ![4096, 4096]⟩ : Shape).Idx → EReal)
    (bias : (⟨1, ![4096]⟩ : Shape).Idx → EReal)
    (X : (⟨2, ![16384, 4096]⟩ : Shape).Idx → EReal) (Wt : (⟨2, ![4096, 4096]⟩ : Shape).Idx → EReal)
    (XA : (⟨2, ![16384, 16]⟩ : Shape).Idx → EReal) (Bb : (⟨2, ![16, 4096]⟩ : Shape).Idx → EReal)
    (b2 : (⟨2, ![1, 4096]⟩ : Shape).Idx → EReal)
    (hX : ∀ (b : Fin 8) (s : Fin 2048) (D : Fin 4096), X (ix2 (flat b s) D) = x (ix3 b s D))
    (hW : ∀ (D O : Fin 4096), Wt (ix2 D O) = W (ix2 O D))
    (hXA : ∀ (M : Fin 16384) (r : Fin 16), XA (ix2 M r) = ∑ D : Fin 4096, X (ix2 M D) * A (ix2 D r))
    (hB : ∀ (r : Fin 16) (O : Fin 4096), Bb (ix2 r O) = B (ix2 r O))
    (hb : ∀ O : Fin 4096, b2 (ix2 (0 : Fin 1) O) = bias (ix1 O))
    (b : Fin 8) (s : Fin 2048) (o : Fin 4096) :
    K X Wt XA Bb b2 (ix2 (flat b s) o) = G x A B W bias (ix3 b s o) := by
  unfold K G partialDot
  show (0 + ∑ s' ∈ Finset.range 4, ∑ d : Fin 1024, X (ix2 (flat b s) (at4096 s' d)) * Wt (ix2 (at4096 s' d) o)
      + ∑ r : Fin 16, XA (ix2 (flat b s) r) * Bb (ix2 r o)) + b2 (ix2 (0 : Fin 1) o)
    = (∑ d : Fin 4096, x (ix3 b s d) * W (ix2 o d)
      + ∑ r : Fin 16, (∑ d : Fin 4096, x (ix3 b s d) * A (ix2 d r)) * B (ix2 r o)) + bias (ix1 o)
  rw [zero_add, sum_stretches (fun D => X (ix2 (flat b s) D) * Wt (ix2 D o)), hb]
  congr 2
  · exact Finset.sum_congr rfl fun D _ => by rw [hX, hW]
  · refine Finset.sum_congr rfl fun r _ => ?_
    rw [hXA, hB]
    congr 1
    exact Finset.sum_congr rfl fun D _ => by rw [hX]

end Cert.LoraSpec

end
-- ==== Proof.RefIsLayer.lean ====
/-
  The reference program computes the layer's result `G`.

  Its seven operations are two einsums for the dense product and the first low-rank factor, a third einsum for the
  second factor, two additions and a broadcast of the bias along the token axes.  Read at an index (b, s, o) each
  einsum is a plain sum over its one contracted axis, and the broadcasts read the bias at `o`: that is `G` term by
  term, the only work being to name the operand indices by their coordinates.
-/
import proofs.«174334_j45337674777318_2_alg».proof.Proof.Gen.ReferenceIdeal.Read
import proofs.«174334_j45337674777318_2_alg».proof.Proof.Spec

noncomputable section

open Idealize.ShloMosaic Idealize.ShloMosaic.ValueIdx
open scoped BigOperators

namespace Cert.ReferenceIdeal.RefValue

open Cert.ReferenceIdeal Cert.ReferenceIdeal.Read

/-- The dense einsum's operand indices at (b, s, o) and contraction position `k`: x at (b, s, k), W at (o, k). -/
theorem lidx0 (i : S8x2048x4096.Idx) (k : Fin 4096) : lidx_main_v0 i k = ix3 (i 0) (i 1) k :=
  funext fun a => match a with | ⟨0, _⟩ => rfl | ⟨1, _⟩ => rfl | ⟨2, _⟩ => rfl
theorem ridx0 (i : S8x2048x4096.Idx) (k : Fin 4096) : ridx_main_v0 i k = ix2 (i 2) k :=
  funext fun a => match a with | ⟨0, _⟩ => rfl | ⟨1, _⟩ => rfl

/-- The first low-rank einsum's, at (b, s, r): x at (b, s, k), A at (k, r). -/
theorem lidx1 (i : S8x2048x16.Idx) (k : Fin 4096) : lidx_main_v1 i k = ix3 (i 0) (i 1) k :=
  funext fun a => match a with | ⟨0, _⟩ => rfl | ⟨1, _⟩ => rfl | ⟨2, _⟩ => rfl
theorem ridx1 (i : S8x2048x16.Idx) (k : Fin 4096) : ridx_main_v1 i k = ix2 k (i 2) :=
  funext fun a => match a with | ⟨0, _⟩ => rfl | ⟨1, _⟩ => rfl

/-- The second low-rank einsum's, at (b, s, o): the first factor at (b, s, r), B at (r, o). -/
theorem lidx2 (i : S8x2048x4096.Idx) (k : Fin 16) : lidx_main_v2 i k = ix3 (i 0) (i 1) k :=
  funext fun a => match a with | ⟨0, _⟩ => rfl | ⟨1, _⟩ => rfl | ⟨2, _⟩ => rfl
theorem ridx2 (i : S8x2048x4096.Idx) (k : Fin 16) : ridx_main_v2 i k = ix2 k (i 2) :=
  funext fun a => match a with | ⟨0, _⟩ => rfl | ⟨1, _⟩ => rfl

/-- The two broadcasts read the bias at the feature coordinate. -/
theorem idx45 (i : S8x2048x4096.Idx) : idx_main_v4 (idx_main_v5 i) = ix1 (i 2) :=
  funext fun a => match a with | ⟨0, _⟩ => rfl

/-- The reference's result is `G` of its five arguments. -/
theorem result_eq (x0 : (⟨S8x2048x4096, .f32⟩ : BufTy).Contents (Elt Ideal)) (x1 : (⟨S4096x16, .f32⟩ : BufTy).Contents (Elt Ideal))
    (x2 : (⟨S16x4096, .f32⟩ : BufTy).Contents (Elt Ideal)) (x3 : (⟨S4096x4096, .f32⟩ : BufTy).Contents (Elt Ideal))
    (x4 : (⟨S4096, .f32⟩ : BufTy).Contents (Elt Ideal)) :
    val_main_v6 (F := Ideal) x0 x1 x2 x3 x4 = Cert.LoraSpec.G x0 x1 x2 x3 x4 := by
  funext i
  rw [val_main_v6_apply, val_main_v3_apply, val_main_v0_apply, val_main_v2_apply, val_main_v5_apply, val_main_v4_apply]
  simp only [val_main_v1_apply, lidx1, ridx1]
  simp only [lidx0, ridx0, lidx2, ridx2, idx45, Ideal.addf_def]
  rfl

end Cert.ReferenceIdeal.RefValue

end
-- ==== Proof.Pieces.lean ====
/-
  What one run of the kernel body leaves behind, as values.

  At every grid point the body reads the carried accumulator tile, adds to it the product of the current activation
  tile and the current weight tile, and stores it back.  At the first point of a contraction run it first stores the
  zero tile, so what it adds to is that zero tile; at the last point it also forms accumulator + (low-rank factor tile ×
  second factor tile) + bias row and stores that to the output tile.  Each statement below says that the tile found in
  a buffer after the body is the corresponding arithmetic term of the tiles the body loaded — every load reads a
  whole buffer and every store covers a whole buffer, so nothing but the arithmetic remains.  They hold for any
  number format.
-/
import proofs.«174334_j45337674777318_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- FIRST POINT of a contraction run: the accumulator is left at (zero tile) + activations × weights. -/
theorem acc_first (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x16 .bf16) (h5 : a5.IsWhole) (a6 : Memref sig .tc .vmem S16x1024 .bf16) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (hc0 : cond0_0 i) (hc1 : ¬cond0_1 i)
    (x0 : Vec F S1024x1024 .bf16) (x1 : Vec F S1024x1024 .bf16) (x2 : Vec F S1024x16 .bf16) (x3 : Vec F S16x1024 .bf16) (x4 : Vec F S1x1024 .f32) :
    sout0_A_0 c i a3 h3 a4 h4 a5 h5 a6 h6 a7 h7 a8 h8 a9 h9 hc0 hc1 x0 x1 x2 x3 x4 = k0_pay2 (k0_pay1 (F := F)) x0 x1 := by
  unfold sout0_A_0
  rw [View.read_writes_eq_canon _ _ _ (scover0_A_0 c i a3 h3 a4 h4 a5 h5 a6 h6 a7 h7 a8 h8 a9 h9 hc0 hc1 x0 x1 x2 x3 x4)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- A MIDDLE POINT: the accumulator is left at (what the point before left) + activations × weights. -/
theorem acc_middle (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x16 .bf16) (h5 : a5.IsWhole) (a6 : Memref sig .tc .vmem S16x1024 .bf16) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (hc0 : ¬cond0_0 i) (hc1 : ¬cond0_1 i)
    (x0 : Vec F S1024x1024 .bf16) (x1 : Vec F S1024x1024 .bf16) (x2 : Vec F S1024x16 .bf16) (x3 : Vec F S16x1024 .bf16) (x4 : Vec F S1x1024 .f32) (xs0 : Vec F S1024x1024 .f32) :
    sout0_B_0 c i a3 h3 a4 h4 a5 h5 a6 h6 a7 h7 a8 h8 a9 h9 hc0 hc1 x0 x1 x2 x3 x4 xs0 = k0_pay2 xs0 x0 x1 := by
  unfold sout0_B_0
  rw [View.read_writes_eq_canon _ _ _ (scover0_B_0 c i a3 h3 a4 h4 a5 h5 a6 h6 a7 h7 a8 h8 a9 h9 hc0 hc1 x0 x1 x2 x3 x4 xs0)]
  unfold kernelRun0_B
  dsimp only
  rw [View.canon_unit_zero hz]
  simp only [View.readAt_eq_ld, h9.read_unread, h3.read_unread, h4.read_unread, View.ld_unit_zero (S := S1024x1024) hz]

/-- THE LAST POINT: the accumulator likewise, -/
theorem acc_last (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x16 .bf16) (h5 : a5.IsWhole) (a6 : Memref sig .tc .vmem S16x1024 .bf16) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (hc0 : ¬cond0_0 i) (hc1 : cond0_1 i)
    (x0 : Vec F S1024x1024 .bf16) (x1 : Vec F S1024x1024 .bf16) (x2 : Vec F S1024x16 .bf16) (x3 : Vec F S16x1024 .bf16) (x4 : Vec F S1x1024 .f32) (xs0 : Vec F S1024x1024 .f32) :
    sout0_C_0 c i a3 h3 a4 h4 a5 h5 a6 h6 a7 h7 a8 h8 a9 h9 hc0 hc1 x0 x1 x2 x3 x4 xs0 = k0_pay2 xs0 x0 x1 := by
  unfold sout0_C_0
  rw [View.read_writes_eq_canon _ _ _ (scover0_C_0 c i a3 h3 a4 h4 a5 h5 a6 h6 a7 h7 a8 h8 a9 h9 hc0 hc1 x0 x1 x2 x3 x4 xs0)]
  unfold kernelRun0_C
  dsimp only
  sl_unfold_words
  rw [View.canon_unit_zero hz]
  simp only [View.readAt_eq_ld, h9.read_unread, h3.read_unread, h4.read_unread, View.ld_unit_zero (S := S1024x1024) hz]

/-- and the output tile is left at (that accumulator) + low-rank correction + bias row. -/
theorem out_last (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x16 .bf16) (h5 : a5.IsWhole) (a6 : Memref sig .tc .vmem S16x1024 .bf16) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (hc0 : ¬cond0_0 i) (hc1 : cond0_1 i)
    (x0 : Vec F S1024x1024 .bf16) (x1 : Vec F S1024x1024 .bf16) (x2 : Vec F S1024x16 .bf16) (x3 : Vec F S16x1024 .bf16) (x4 : Vec F S1x1024 .f32) (xs0 : Vec F S1024x1024 .f32) :
    out0_C_5 c i a3 h3 a4 h4 a5 h5 a6 h6 a7 h7 a8 h8 a9 h9 hc0 hc1 x0 x1 x2 x3 x4 xs0 = k0_pay3 x2 x3 (k0_pay2 xs0 x0 x1) x4 := by
  unfold out0_C_5
  rw [View.read_writes_eq_canon _ _ _ (cover0_C_5 c i a3 h3 a4 h4 a5 h5 a6 h6 a7 h7 a8 h8 a9 h9 hc0 hc1 x0 x1 x2 x3 x4 xs0)]
  unfold kernelRun0_C
  dsimp only
  sl_unfold_words
  rw [View.canon_unit_zero hz, View.readCov_unit_zero (S := S1024x1024) _ hz]
  simp only [View.readAt_eq_ld, h9.read_unread, h3.read_unread, h4.read_unread, h5.read_unread, h6.read_unread,
    h7.read_unread, View.ld_unit_zero (S := S1024x1024) hz, View.ld_unit_zero (S := S1024x16) hz,
    View.ld_unit_zero (S := S16x1024) hz, View.ld_unit_zero (S := S1x1024) hz]

end Cert.KernelIdeal.Pieces

end
-- ==== Proof.PointValues.lean ====
/-
  What the accumulator and the output tile hold after each grid point, in terms of the point before.

  The grid runs over (row tile i, column tile j, contraction stretch k), k fastest, so a point's number t has
  k = t mod 4.  After point t the accumulator holds
      k = 0 :  (zero tile) + x-tile(t) × w-tile(t)
      k > 0 :  (accumulator after point t − 1) + x-tile(t) × w-tile(t)
  and at k = 3 the output tile holds  (that accumulator) + xa-tile(t) × b-tile(t) + bias row(t).
  These hold for any number format; the arithmetic terms are the body's own.
-/
import proofs.«174334_j45337674777318_2_alg».proof.Proof.Pieces

noncomputable section

open Idealize.ShloMosaic Idealize.ShloMosaic.TcCoe Idealize.SL.Sem

namespace Cert.KernelIdeal.PointValues

open Cert.KernelIdeal Cert.KernelIdeal.Gen Cert.KernelIdeal.Pieces

variable {F : FTy → Type} [FloatOps F]
variable (m : (ℓ : Loc nD τ sig) → Buf (Elt F) ℓ)

/-- First stretch of a contraction run. -/
theorem acc_at_first (c : Dev nD) (t : Fin cfg0.N) (h0 : t.val % 4 = 0) (h1 : ¬t.val % 4 = 3) :
    (outsAt0 m c t.val t.isLt).2 = k0_pay2 (k0_pay1 (F := F)) (iblk m c 0 t) (iblk m c 1 t) := by
  rw [outsAt0_A m c t h0 h1]
  dsimp only
  exact acc_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)

/-- A middle stretch. -/
theorem acc_at_middle (c : Dev nD) (t : Fin cfg0.N) (h0 : ¬t.val % 4 = 0) (h1 : ¬t.val % 4 = 3) :
    (outsAt0 m c t.val t.isLt).2 = k0_pay2 (outsAt0 m c (t.val - 1) (Nat.lt_of_le_of_lt (Nat.sub_le _ _) t.isLt)).2 (iblk m c 0 t) (iblk m c 1 t) := by
  rw [outsAt0_B m c t h0 h1]
  dsimp only
  exact acc_middle c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2

/-- The last stretch: the accumulator, -/
theorem acc_at_last (c : Dev nD) (t : Fin cfg0.N) (h0 : ¬t.val % 4 = 0) (h1 : t.val % 4 = 3) :
    (outsAt0 m c t.val t.isLt).2 = k0_pay2 (outsAt0 m c (t.val - 1) (Nat.lt_of_le_of_lt (Nat.sub_le _ _) t.isLt)).2 (iblk m c 0 t) (iblk m c 1 t) := by
  rw [outsAt0_C m c t h0 h1]
  dsimp only
  exact acc_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2

/-- and the output tile. -/
theorem out_at_last (c : Dev nD) (t : Fin cfg0.N) (h0 : ¬t.val % 4 = 0) (h1 : t.val % 4 = 3) :
    (outsAt0 m c t.val t.isLt).1
      = k0_pay3 (iblk m c 2 t) (iblk m c 3 t) (k0_pay2 (outsAt0 m c (t.val - 1) (Nat.lt_of_le_of_lt (Nat.sub_le _ _) t.isLt)).2 (iblk m c 0 t) (iblk m c 1 t)) (iblk m c 4 t) := by
  rw [outsAt0_C m c t h0 h1]
  dsimp only
  exact out_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2

/-- Any later stretch (middle or last): the accumulator adds this point's product to what the point before left. -/
theorem acc_at_later (c : Dev nD) (t : Fin cfg0.N) (h0 : ¬t.val % 4 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 4 = 3
  · exact acc_at_last m c t h0 h1
  · exact acc_at_middle m c t h0 h1

/-- At the last stretch the output tile is the finishing step applied to the accumulator of that same point. -/
theorem out_at_last' (c : Dev nD) (t : Fin cfg0.N) (h0 : ¬t.val % 4 = 0) (h1 : t.val % 4 = 3) :
    (outsAt0 m c t.val t.isLt).1
      = k0_pay3 (iblk m c 2 t) (iblk m c 3 t) (outsAt0 m c t.val t.isLt).2 (iblk m c 4 t) := by
  rw [acc_at_last m c t h0 h1]
  exact out_at_last m c t h0 h1

end Cert.KernelIdeal.PointValues

end
-- ==== Proof.Payloads.lean ====
/-
  The body's arithmetic, read at one element of a tile, over the extended reals.

  * the reset tile is 0 everywhere;
  * the accumulation step at (p, q) is  acc(p,q) + Σ_{d<1024} x(p,d) · w(d,q)  — a tile product into the zero tile is
    the plain sum over the one contracted axis;
  * the finishing step at (p, q) is  (acc(p,q) + Σ_{r<16} xa(p,r) · b(r,q)) + bias(0,q)  — the bias row is copied down
    the 1024 rows.
  Changes of number format and casts of a shape to itself are the identity here.
-/
import proofs.«174334_j45337674777318_2_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.ValueIdx
open scoped BigOperators

namespace Cert.KernelIdeal.Payload

open Cert.KernelIdeal Cert.KernelIdeal.Gen

/-- The reset tile is zero. -/
theorem reset_apply (j : S1024x1024.Idx) : k0_pay1 (F := Ideal) j = 0 := by
  unfold k0_pay1
  rw [shapeCast_self]
  exact Ideal.ofBits_zero_f32

/-- Operand coordinates of the dense tile product: the left operand's row is the result's row, the right operand's column
    the result's column, and both contracted coordinates are the contraction position. -/
theorem dense_lhs0 (i : S1024x1024.Idx) (q : dot_S1024x1024_S1024x1024_S1024x1024_1_0_0_1_n_n.contr.Idx) : (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem dense_rhs1 (i : S1024x1024.Idx) (q : dot_S1024x1024_S1024x1024_S1024x1024_1_0_0_1_n_n.contr.Idx) : (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- A [1024,1024] × [1024,1024] tile product into the zero tile, at (p, q): the sum over the contracted axis. -/
theorem dense_tile_apply (l : FVec Ideal S1024x1024 .bf16) (r : FVec Ideal S1024x1024 .bf16) (p q : Fin 1024) :
    matmul dot_S1024x1024_S1024x1024_S1024x1024_1_0_0_1_n_n none l r (constant (F := Ideal) S1024x1024 .f32 0x00000000#32) (ix2 p q)
      = ∑ k : Fin 1024, l (ix2 p k) * r (ix2 k q) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun a => Fin.ext (by
    match a with
    | ⟨0, _⟩ => exact dense_lhs0 _ _
    | ⟨1, _⟩ => exact (dot_S1024x1024_S1024x1024_S1024x1024_1_0_0_1_n_n.lhsIdx_val_of_single rfl _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun a => Fin.ext (by
    match a with
    | ⟨0, _⟩ => exact (dot_S1024x1024_S1024x1024_S1024x1024_1_0_0_1_n_n.rhsIdx_val_of_single rfl _ _).trans hk
    | ⟨1, _⟩ => exact dense_rhs1 _ _)
  rw [el, er]

/-- Operand coordinates of the lowrank tile product: the left operand's row is the result's row, the right operand's column
    the result's column, and both contracted coordinates are the contraction position. -/
theorem lowrank_lhs0 (i : S1024x1024.Idx) (q : dot_S1024x16_S16x1024_S1024x1024_1_0_0_1_n_n.contr.Idx) : (dot_S1024x16_S16x1024_S1024x1024_1_0_0_1_n_n.lhsIdx i q 0).val = (i 0).val := by
  unfold DotDims.lhsIdx
  rw [dif_neg (show ¬(0 : Fin S1024x16.rank) ∈ dot_S1024x16_S16x1024_S1024x1024_1_0_0_1_n_n.lhsBatch by decide), dif_pos (show (0 : Fin S1024x16.rank) ∈ dot_S1024x16_S16x1024_S1024x1024_1_0_0_1_n_n.lhsNonContracting by decide)]
  rfl
theorem lowrank_rhs1 (i : S1024x1024.Idx) (q : dot_S1024x16_S16x1024_S1024x1024_1_0_0_1_n_n.contr.Idx) : (dot_S1024x16_S16x1024_S1024x1024_1_0_0_1_n_n.rhsIdx i q 1).val = (i 1).val := by
  unfold DotDims.rhsIdx
  rw [dif_neg (show ¬(1 : Fin S16x1024.rank) ∈ dot_S1024x16_S16x1024_S1024x1024_1_0_0_1_n_n.rhsBatch by decide), dif_pos (show (1 : Fin S16x1024.rank) ∈ dot_S1024x16_S16x1024_S1024x1024_1_0_0_1_n_n.rhsNonContracting by decide)]
  rfl

/-- A [1024,16] × [16,1024] tile product into the zero tile, at (p, q). -/
theorem lowrank_tile_apply (l : FVec Ideal S1024x16 .bf16) (r : FVec Ideal S16x1024 .bf16) (p q : Fin 1024) :
    matmul dot_S1024x16_S16x1024_S1024x1024_1_0_0_1_n_n none l r (constant (F := Ideal) S1024x1024 .f32 0x00000000#32) (ix2 p q)
      = ∑ k : Fin 16, l (ix2 p k) * r (ix2 k q) := by
  simp only [matmul]
  rw [Ideal.matmul_constant_zero_apply, ← Equiv.sum_comp (contrEquiv1 dot_S1024x16_S16x1024_S1024x1024_1_0_0_1_n_n 16 rfl rfl).symm]
  refine Finset.sum_congr rfl fun k _ => ?_
  have hk := contrEquiv1_symm_val dot_S1024x16_S16x1024_S1024x1024_1_0_0_1_n_n 16 rfl rfl k
  have el : dot_S1024x16_S16x1024_S1024x1024_1_0_0_1_n_n.lhsIdx (ix2 p q) ((contrEquiv1 dot_S1024x16_S16x1024_S1024x1024_1_0_0_1_n_n 16 rfl rfl).symm k) = ix2 p k := funext fun a => Fin.ext (by
    match a with
    | ⟨0, _⟩ => exact lowrank_lhs0 _ _
    | ⟨1, _⟩ => exact (dot_S1024x16_S16x1024_S1024x1024_1_0_0_1_n_n.lhsIdx_val_of_single rfl _ _).trans hk)
  have er : dot_S1024x16_S16x1024_S1024x1024_1_0_0_1_n_n.rhsIdx (ix2 p q) ((contrEquiv1 dot_S1024x16_S16x1024_S1024x1024_1_0_0_1_n_n 16 rfl rfl).symm k) = ix2 k q := funext fun a => Fin.ext (by
    match a with
    | ⟨0, _⟩ => exact (dot_S1024x16_S16x1024_S1024x1024_1_0_0_1_n_n.rhsIdx_val_of_single rfl _ _).trans hk
    | ⟨1, _⟩ => exact lowrank_rhs1 _ _)
  rw [el, er]

/-- THE ACCUMULATION STEP at (p, q). -/
theorem step_apply (acc : Vec Ideal S1024x1024 .f32) (x : Vec Ideal S1024x1024 .bf16) (w : Vec Ideal S1024x1024 .bf16)
    (p q : Fin 1024) :
    k0_pay2 (F := Ideal) acc x w (ix2 p q) = acc (ix2 p q) + ∑ k : Fin 1024, x (ix2 p k) * w (ix2 k q) := by
  unfold k0_pay2
  simp only [shapeCast_self]
  rw [addf_apply, dense_tile_apply]

/-- The bias row copied down the rows, at (p, q), is the row at (0, q). -/
theorem bias_rows_apply (v : S1x1024.Idx → EReal) (p q : Fin 1024) :
    broadcastTo S1024x1024 v broadcasts_S1x1024_S1024x1024 (ix2 p q) = v (ix2 (0 : Fin 1) q) :=
  broadcastTo_apply v broadcasts_S1x1024_S1024x1024 (ix2 p q) (ix2 (0 : Fin 1) q) fun a => by
    match a with
    | ⟨0, _⟩ => show (0 : ℕ) = if (1 : ℕ) = 1 then 0 else p.val; rw [if_pos rfl]
    | ⟨1, _⟩ => show q.val = if (1024 : ℕ) = 1 then 0 else q.val; rw [if_neg (by decide)]

/-- THE FINISHING STEP at (p, q). -/
theorem finish_apply (xa : Vec Ideal S1024x16 .bf16) (b : Vec Ideal S16x1024 .bf16) (acc : Vec Ideal S1024x1024 .f32)
    (bias : Vec Ideal S1x1024 .f32) (p q : Fin 1024) :
    k0_pay3 (F := Ideal) xa b acc bias (ix2 p q)
      = (acc (ix2 p q) + ∑ r : Fin 16, xa (ix2 p r) * b (ix2 r q)) + bias (ix2 (0 : Fin 1) q) := by
  unfold k0_pay3
  simp only [shapeCast_self]
  rw [addf_apply, addf_apply, lowrank_tile_apply, bias_rows_apply]

end Cert.KernelIdeal.Payload

end
-- ==== Proof.Blocks.lean ====
/-
  Which part of each array a grid point's tiles are.

  Point number t stands for (row tile i, column tile j, contraction stretch k) = (t / 16, t / 4 mod 4, t mod 4).
  The activation tile is rows 1024·i … of X and columns 1024·k …; the weight tile rows 1024·k … of Wt and columns
  1024·j …; the low-rank factor tile rows 1024·i … of XA (all 16 columns); the second-factor tile columns 1024·j … of
  Bb (all 16 rows); the bias tile columns 1024·j … of the bias row; the output tile rows 1024·i …, columns 1024·j ….
-/
import proofs.«174334_j45337674777318_2_alg».proof.Proof.Gen.KernelIdeal.Frame
import proofs.«174334_j45337674777318_2_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen Cert.LoraSpec

variable {F : FTy → Type} [FloatOps F]
variable (m : (ℓ : Loc nD τ sig) → Buf (Elt F) ℓ)

/-- The tile numbers of every window at every point, decided once over the 256 points. -/
theorem tiles : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = t.val / 16 ∧ win0_2.index t (1 : Fin 2) = 0
    ∧ win0_3.index t (0 : Fin 2) = 0 ∧ win0_3.index t (1 : Fin 2) = t.val / 4 % 4
    ∧ win0_4.index t (0 : Fin 2) = 0 ∧ win0_4.index t (1 : Fin 2) = t.val / 4 % 4
    ∧ win0_5.index t (0 : Fin 2) = t.val / 16 ∧ win0_5.index t (1 : Fin 2) = t.val / 4 % 4 :=
  (by decide +kernel : ∀ t : Fin grid0.N, _)

theorem lt256 (t : Fin cfg0.N) : t.val < 256 := lt_of_lt_of_eq t.isLt (show cfg0.N = 256 from N_0)

/-- The activation tile at (p, d). -/
theorem x_tile_apply (c : Dev nD) (t : Fin cfg0.N) (p d : Fin 1024) :
    (iblk m c 0 t : Vec F S1024x1024 .bf16) (ix2 p d)
      = (V m c main_v1 : S16384x4096.Idx → Elt F .bf16) (ix2 (at16384 (t.val / 16) p) (at4096 (t.val % 4) d)) := by
  have hN := lt256 t
  obtain ⟨e0, e1, -⟩ := tiles t
  unfold iblk
  rw [View.read_apply]
  show V m c main_v1 _ = V m c main_v1 _
  refine congrArg (V m c main_v1) (funext fun a => Fin.ext ?_)
  match a with
  | ⟨0, _⟩ =>
    show win0_0.index t (0 : Fin 2) * 1024 + 1 * p.val = (1024 * (t.val / 16) + p.val) % 16384
    have := p.isLt; omega
  | ⟨1, _⟩ =>
    show win0_0.index t (1 : Fin 2) * 1024 + 1 * d.val = (1024 * (t.val % 4) + d.val) % 4096
    have := d.isLt; omega

/-- The weight tile at (d, q). -/
theorem w_tile_apply (c : Dev nD) (t : Fin cfg0.N) (d q : Fin 1024) :
    (iblk m c 1 t : Vec F S1024x1024 .bf16) (ix2 d q)
      = (V m c main_v3 : S4096x4096.Idx → Elt F .bf16) (ix2 (at4096 (t.val % 4) d) (at4096 (t.val / 4 % 4) q)) := by
  have hN := lt256 t
  obtain ⟨-, -, e0, e1, -⟩ := tiles t
  unfold iblk
  rw [View.read_apply]
  show V m c main_v3 _ = V m c main_v3 _
  refine congrArg (V m c main_v3) (funext fun a => Fin.ext ?_)
  match a with
  | ⟨0, _⟩ =>
    show win0_1.index t (0 : Fin 2) * 1024 + 1 * d.val = (1024 * (t.val % 4) + d.val) % 4096
    have := d.isLt; omega
  | ⟨1, _⟩ =>
    show win0_1.index t (1 : Fin 2) * 1024 + 1 * q.val = (1024 * (t.val / 4 % 4) + q.val) % 4096
    have := q.isLt; omega

/-- The low-rank factor tile at (p, r). -/
theorem xa_tile_apply (c : Dev nD) (t : Fin cfg0.N) (p : Fin 1024) (r : Fin 16) :
    (iblk m c 2 t : Vec F S1024x16 .bf16) (ix2 p r)
      = (V m c main_v7 : S16384x16.Idx → Elt F .bf16) (ix2 (at16384 (t.val / 16) p) r) := by
  have hN := lt256 t
  obtain ⟨-, -, -, -, e0, e1, -⟩ := tiles t
  unfold iblk
  rw [View.read_apply]
  show V m c main_v7 _ = V m c main_v7 _
  refine congrArg (V m c main_v7) (funext fun a => Fin.ext ?_)
  match a with
  | ⟨0, _⟩ =>
    show win0_2.index t (0 : Fin 2) * 1024 + 1 * p.val = (1024 * (t.val / 16) + p.val) % 16384
    have := p.isLt; omega
  | ⟨1, _⟩ =>
    show win0_2.index t (1 : Fin 2) * 16 + 1 * r.val = r.val
    omega

/-- The second-factor tile at (r, q). -/
theorem b_tile_apply (c : Dev nD) (t : Fin cfg0.N) (r : Fin 16) (q : Fin 1024) :
    (iblk m c 3 t : Vec F S16x1024 .bf16) (ix2 r q)
      = (V m c main_v4 : S16x4096.Idx → Elt F .bf16) (ix2 r (at4096 (t.val / 4 % 4) q)) := by
  have hN := lt256 t
  obtain ⟨-, -, -, -, -, -, e0, e1, -⟩ := tiles t
  unfold iblk
  rw [View.read_apply]
  show V m c main_v4 _ = V m c main_v4 _
  refine congrArg (V m c main_v4) (funext fun a => Fin.ext ?_)
  match a with
  | ⟨0, _⟩ =>
    show win0_3.index t (0 : Fin 2) * 16 + 1 * r.val = r.val
    omega
  | ⟨1, _⟩ =>
    show win0_3.index t (1 : Fin 2) * 1024 + 1 * q.val = (1024 * (t.val / 4 % 4) + q.val) % 4096
    have := q.isLt; omega

/-- The bias tile at (0, q). -/
theorem bias_tile_apply (c : Dev nD) (t : Fin cfg0.N) (q : Fin 1024) :
    (iblk m c 4 t : Vec F S1x1024 .f32) (ix2 (0 : Fin 1) q)
      = (V m c main_v5 : S1x4096.Idx → Elt F .f32) (ix2 (0 : Fin 1) (at4096 (t.val / 4 % 4) q)) := by
  have hN := lt256 t
  obtain ⟨-, -, -, -, -, -, -, -, e0, e1, -⟩ := tiles t
  unfold iblk
  rw [View.read_apply]
  show V m c main_v5 _ = V m c main_v5 _
  refine congrArg (V m c main_v5) (funext fun a => Fin.ext ?_)
  match a with
  | ⟨0, _⟩ =>
    show win0_4.index t (0 : Fin 2) * 1 + 1 * 0 = 0
    omega
  | ⟨1, _⟩ =>
    show win0_4.index t (1 : Fin 2) * 1024 + 1 * q.val = (1024 * (t.val / 4 % 4) + q.val) % 4096
    have := q.isLt; omega

end Cert.KernelIdeal.Blocks

end
-- ==== Proof.Entry.lean ====
/-
  The arrays the tiles are cut from, as the tiled region finds them.

  Before the region the program flattens the activations to [16384, 4096] (token M = 2048·b + s), transposes the
  weight, forms the first low-rank factor XA = X · A as one product over the whole contraction axis, and lays the
  bias out as a row [1, 4096]; the conversions to the narrow format change nothing over the extended reals.  Read at
  an index:
      X(2048·b + s, d) = x(b, s, d)      Wt(d, o) = W(o, d)      XA(M, r) = Σ_d X(M, d) · A(d, r)
      Bb(r, o) = B(r, o)                 row(0, o) = bias(o)
-/
import proofs.«174334_j45337674777318_2_alg».proof.Proof.Gen.KernelIdeal.Frame
import proofs.«174334_j45337674777318_2_alg».proof.Proof.Spec
import Idealize.ShloMosaic.Lib.Pipeline.Value
import Idealize.ShloMosaic.Lib.ValueIdx
import Idealize.ShloMosaic.Lib.StableHlo.Run
import Idealize.ShloMosaic.Lib.Tactic
import Idealize.ShloMosaic.PureOps.Ideal.Laws

noncomputable section

open Idealize.ShloMosaic Idealize.ShloMosaic.TcCoe Idealize.SL.Sem Idealize.ShloMosaic.ValueIdx
open scoped BigOperators

namespace Cert.KernelIdeal.Entry

open Cert.KernelIdeal Cert.KernelIdeal.Gen Cert.LoraSpec

variable (m : (ℓ : Loc nD τ sig) → Buf (Elt Ideal) ℓ)

/-- The flattened activations, the transposed weight, the first low-rank factor, the second factor and the bias row,
    as the region finds them on core `c`. -/
abbrev X (c : Dev nD) : S16384x4096.Idx → EReal := V m c main_v1
abbrev Wt (c : Dev nD) : S4096x4096.Idx → EReal := V m c main_v3
abbrev XA (c : Dev nD) : S16384x16.Idx → EReal := V m c main_v7
abbrev Bb (c : Dev nD) : S16x4096.Idx → EReal := V m c main_v4
abbrev biasRow (c : Dev nD) : S1x4096.Idx → EReal := V m c main_v5

/-- The five arguments on core `c`. -/
abbrev argX (c : Dev nD) : S8x2048x4096.Idx → EReal := m ((c : Thread nD τ).loc main_arg0)
abbrev argA (c : Dev nD) : S4096x16.Idx → EReal := m ((c : Thread nD τ).loc main_arg1)
abbrev argB (c : Dev nD) : S16x4096.Idx → EReal := m ((c : Thread nD τ).loc main_arg2)
abbrev argW (c : Dev nD) : S4096x4096.Idx → EReal := m ((c : Thread nD τ).loc main_arg3)
abbrev argBias (c : Dev nD) : S4096.Idx → EReal := m ((c : Thread nD τ).loc main_arg4)

/-- The flattening: same row-major position. -/
def flatX (x : S8x2048x4096.Idx → EReal) : S16384x4096.Idx → EReal :=
  shapeCast S16384x4096 x shapeCasts_S8x2048x4096_S16384x4096

theorem flatX_apply (x : S8x2048x4096.Idx → EReal) (b : Fin 8) (s : Fin 2048) (D : Fin 4096) :
    flatX x (ix2 (flat b s) D) = x (ix3 b s D) := by
  unfold flatX
  refine shapeCast_apply x shapeCasts_S8x2048x4096_S16384x4096 (ix2 (flat b s) D) (ix3 b s D) ?_
  rw [Shape.rowMajor_val_three, Shape.rowMajor_val_two]
  show (b.val * 2048 + s.val) * 4096 + D.val = (2048 * b.val + s.val) * 4096 + D.val
  omega

theorem X_eq (c : Dev nD) : X m c = flatX (argX m c) := by
  show StableHlo.after hostOps0 (fun b => m (c, b)) (Proc.devRef .tc main_v1) = _
  after_results
  rfl

theorem X_apply (c : Dev nD) (b : Fin 8) (s : Fin 2048) (D : Fin 4096) :
    X m c (ix2 (flat b s) D) = argX m c (ix3 b s D) := by
  rw [X_eq]; exact flatX_apply _ b s D

theorem Wt_eq (c : Dev nD) : Wt m c = transpose S4096x4096 [1, 0] (argW m c) transposes_S4096x4096_S4096x4096_1_0 := by
  show StableHlo.after hostOps0 (fun b => m (c, b)) (Proc.devRef .tc main_v3) = _
  after_results
  rfl

theorem Wt_apply (c : Dev nD) (D O : Fin 4096) : Wt m c (ix2 D O) = argW m c (ix2 O D) := by
  rw [Wt_eq]
  exact transpose_apply [1, 0] (argW m c) transposes_S4096x4096_S4096x4096_1_0 (ix2 D O) (ix2 O D) fun b => by
    match b with
    | ⟨0, _⟩ => rfl
    | ⟨1, _⟩ => rfl

theorem Bb_eq (c : Dev nD) : Bb m c = argB m c := by
  show StableHlo.after hostOps0 (fun b => m (c, b)) (Proc.devRef .tc main_v4) = _
  after_results
  rfl

theorem biasRow_eq (c : Dev nD) : biasRow m c = shapeCast S1x4096 (argBias m c) shapeCasts_S4096_S1x4096 := by
  show StableHlo.after hostOps0 (fun b => m (c, b)) (Proc.devRef .tc main_v5) = _
  after_results
  rfl

theorem biasRow_apply (c : Dev nD) (O : Fin 4096) : biasRow m c (ix2 (0 : Fin 1) O) = argBias m c (ix1 O) := by
  rw [biasRow_eq]
  refine shapeCast_apply (argBias m c) shapeCasts_S4096_S1x4096 (ix2 (0 : Fin 1) O) (ix1 O) ?_
  rw [Shape.rowMajor_val_one, Shape.rowMajor_val_two]
  show O.val = 0 * 4096 + O.val
  omega

/-- Operand coordinates of the whole-axis product XA = X · A. -/
theorem xa_lhs0 (i : S16384x16.Idx) (q : dot_S16384x4096_S4096x16_S16384x16_1_0_0_1_n_n.contr.Idx) : (dot_S16384x4096_S4096x16_S16384x16_1_0_0_1_n_n.lhsIdx i q 0).val = (i 0).val := by
  unfold DotDims.lhsIdx
  rw [dif_neg (show ¬(0 : Fin S16384x4096.rank) ∈ dot_S16384x4096_S4096x16_S16384x16_1_0_0_1_n_n.lhsBatch by decide), dif_pos (show (0 : Fin S16384x4096.rank) ∈ dot_S16384x4096_S4096x16_S16384x16_1_0_0_1_n_n.lhsNonContracting by decide)]
  rfl
theorem xa_rhs1 (i : S16384x16.Idx) (q : dot_S16384x4096_S4096x16_S16384x16_1_0_0_1_n_n.contr.Idx) : (dot_S16384x4096_S4096x16_S16384x16_1_0_0_1_n_n.rhsIdx i q 1).val = (i 1).val := by
  unfold DotDims.rhsIdx
  rw [dif_neg (show ¬(1 : Fin S4096x16.rank) ∈ dot_S16384x4096_S4096x16_S16384x16_1_0_0_1_n_n.rhsBatch by decide), dif_pos (show (1 : Fin S4096x16.rank) ∈ dot_S16384x4096_S4096x16_S16384x16_1_0_0_1_n_n.rhsNonContracting by decide)]
  rfl

/-- The whole-axis product at (M, r). -/
theorem xa_product_apply (l : FVec Ideal S16384x4096 .f32) (r : FVec Ideal S4096x16 .f32) (M : Fin 16384) (k : Fin 16) :
    Host.dotGeneral dot_S16384x4096_S4096x16_S16384x16_1_0_0_1_n_n none l r (ix2 M k) = ∑ D : Fin 4096, l (ix2 M D) * r (ix2 D k) := by
  simp only [Host.dotGeneral]
  rw [Ideal.dotGeneral_apply, ← Equiv.sum_comp (contrEquiv1 dot_S16384x4096_S4096x16_S16384x16_1_0_0_1_n_n 4096 rfl rfl).symm]
  refine Finset.sum_congr rfl fun D _ => ?_
  have hk := contrEquiv1_symm_val dot_S16384x4096_S4096x16_S16384x16_1_0_0_1_n_n 4096 rfl rfl D
  have el : dot_S16384x4096_S4096x16_S16384x16_1_0_0_1_n_n.lhsIdx (ix2 M k) ((contrEquiv1 dot_S16384x4096_S4096x16_S16384x16_1_0_0_1_n_n 4096 rfl rfl).symm D) = ix2 M D := funext fun a => Fin.ext (by
    match a with
    | ⟨0, _⟩ => exact xa_lhs0 _ _
    | ⟨1, _⟩ => exact (dot_S16384x4096_S4096x16_S16384x16_1_0_0_1_n_n.lhsIdx_val_of_single rfl _ _).trans hk)
  have er : dot_S16384x4096_S4096x16_S16384x16_1_0_0_1_n_n.rhsIdx (ix2 M k) ((contrEquiv1 dot_S16384x4096_S4096x16_S16384x16_1_0_0_1_n_n 4096 rfl rfl).symm D) = ix2 D k := funext fun a => Fin.ext (by
    match a with
    | ⟨0, _⟩ => exact (dot_S16384x4096_S4096x16_S16384x16_1_0_0_1_n_n.rhsIdx_val_of_single rfl _ _).trans hk
    | ⟨1, _⟩ => exact xa_rhs1 _ _)
  rw [el, er]

theorem XA_eq (c : Dev nD) :
    XA m c = Host.dotGeneral (F := Ideal) (φ₁ := .f32) (φ₂ := .f32) dot_S16384x4096_S4096x16_S16384x16_1_0_0_1_n_n none (flatX (argX m c)) (argA m c) := by
  show StableHlo.after hostOps0 (fun b => m (c, b)) (Proc.devRef .tc main_v7) = _
  after_results
  rfl

theorem XA_apply (c : Dev nD) (M : Fin 16384) (r : Fin 16) :
    XA m c (ix2 M r) = ∑ D : Fin 4096, X m c (ix2 M D) * argA m c (ix2 D r) := by
  rw [XA_eq, X_eq]
  exact xa_product_apply _ _ M r

end Cert.KernelIdeal.Entry

end
-- ==== Proof.Accum.lean ====
/-
  The accumulator is the partial dense product; the output tile is the tile of the tiled result.

  By induction on the point number t = 16·i + 4·j + k: after point t the accumulator at (p, q) holds the partial
  product, over the first k + 1 stretches of the contraction axis, of row 1024·i + p of X and column 1024·j + q of Wt
  (it restarts from zero whenever k = 0, and each later point adds its own stretch to what the point before left —
  the points of one (i, j) are consecutive, so "the point before" is the same tile one stretch earlier).  At k = 3 all
  four stretches are in, and the finishing step adds the low-rank correction and the bias: the output tile at (p, q)
  is the tiled result `K` at (1024·i + p, 1024·j + q).
-/
import proofs.«174334_j45337674777318_2_alg».proof.Proof.PointValues
import proofs.«174334_j45337674777318_2_alg».proof.Proof.Payloads
import proofs.«174334_j45337674777318_2_alg».proof.Proof.Blocks
import proofs.«174334_j45337674777318_2_alg».proof.Proof.Entry

noncomputable section

open Idealize.ShloMosaic Idealize.ShloMosaic.TcCoe Idealize.SL.Sem Idealize.ShloMosaic.ValueIdx
open scoped BigOperators

namespace Cert.KernelIdeal.Accum

open Cert.KernelIdeal Cert.KernelIdeal.Gen Cert.LoraSpec Cert.KernelIdeal.Entry

variable (m : (ℓ : Loc nD τ sig) → Buf (Elt Ideal) ℓ)

/-- After one stretch the partial product is zero plus that stretch. -/
theorem partialDot_one (X : (⟨2, ![16384, 4096]⟩ : Shape).Idx → EReal) (Wt : (⟨2, ![4096, 4096]⟩ : Shape).Idx → EReal)
    (M : Fin 16384) (O : Fin 4096) :
    partialDot X Wt M O 1 = 0 + ∑ d : Fin 1024, X (ix2 M (at4096 0 d)) * Wt (ix2 (at4096 0 d) O) := by
  unfold partialDot
  rw [Finset.sum_range_one]

/-- One accumulation step at point `t`, at (p, q), in terms of the arrays the tiles are cut from. -/
theorem step_at (c : Dev nD) (t : Fin cfg0.N) (acc : Vec Ideal S1024x1024 .f32) (p q : Fin 1024) :
    k0_pay2 (F := Ideal) acc (iblk m c 0 t) (iblk m c 1 t) (ix2 p q)
      = acc (ix2 p q) + ∑ d : Fin 1024, X m c (ix2 (at16384 (t.val / 16) p) (at4096 (t.val % 4) d))
          * Wt m c (ix2 (at4096 (t.val % 4) d) (at4096 (t.val / 4 % 4) q)) := by
  refine (Payload.step_apply acc (iblk m c 0 t) (iblk m c 1 t) p q).trans ?_
  refine congrArg (acc (ix2 p q) + ·) (Finset.sum_congr rfl fun d _ => ?_)
  exact congrArg₂ (· * ·) (Blocks.x_tile_apply m c t p d) (Blocks.w_tile_apply m c t d q)

/-- At the first stretch of a run the accumulator is the partial product over one stretch. -/
theorem acc_first_val (c : Dev nD) (t : Fin cfg0.N) (h0 : t.val % 4 = 0) (p q : Fin 1024) :
    (outsAt0 m c t.val t.isLt).2 (ix2 p q)
      = partialDot (X m c) (Wt m c) (at16384 (t.val / 16) p) (at4096 (t.val / 4 % 4) q) 1 := by
  refine (congrFun (PointValues.acc_at_first m c t h0 (by omega)) (ix2 p q)).trans ?_
  refine (step_at m c t _ p q).trans ?_
  rw [Payload.reset_apply, h0, partialDot_one]

/-- At a later stretch it is what the point before left plus this stretch. -/
theorem acc_later_val (c : Dev nD) (t : Fin cfg0.N) (h0 : ¬t.val % 4 = 0) (p q : Fin 1024) :
    (outsAt0 m c t.val t.isLt).2 (ix2 p q)
      = (outsAt0 m c (t.val - 1) (Nat.lt_of_le_of_lt (Nat.sub_le _ _) t.isLt)).2 (ix2 p q)
        + ∑ d : Fin 1024, X m c (ix2 (at16384 (t.val / 16) p) (at4096 (t.val % 4) d))
          * Wt m c (ix2 (at4096 (t.val % 4) d) (at4096 (t.val / 4 % 4) q)) := by
  refine (congrFun (PointValues.acc_at_later m c t h0) (ix2 p q)).trans ?_
  exact step_at m c t _ p q

/-- THE INVARIANT: after point `n` the accumulator is the partial product over the first `n mod 4 + 1` stretches. -/
theorem acc_val (c : Dev nD) (n : ℕ) : ∀ (h : n < cfg0.N) (p q : Fin 1024),
    (outsAt0 m c n h).2 (ix2 p q)
      = partialDot (X m c) (Wt m c) (at16384 (n / 16) p) (at4096 (n / 4 % 4) q) (n % 4 + 1) := by
  induction n with
  | zero =>
    intro h p q
    exact acc_first_val m c ⟨0, h⟩ rfl p q
  | succ n ih =>
    intro h p q
    by_cases h0 : (n + 1) % 4 = 0
    · have e := acc_first_val m c ⟨n + 1, h⟩ h0 p q
      rw [h0]
      exact e
    · have e := acc_later_val m c ⟨n + 1, h⟩ h0 p q
      refine e.trans ?_
      show (outsAt0 m c n _).2 (ix2 p q) + _ = _
      rw [ih (Nat.lt_of_succ_lt h) p q]
      have e1 : n / 16 = (n + 1) / 16 := by omega
      have e2 : n / 4 % 4 = (n + 1) / 4 % 4 := by omega
      have e3 : n % 4 + 1 = (n + 1) % 4 := by omega
      rw [e1, e2, e3]
      exact (partialDot_succ (X m c) (Wt m c) _ _ _).symm

/-- THE OUTPUT TILE at a last stretch is the tile of the tiled result. -/
theorem out_val (c : Dev nD) (t : Fin cfg0.N) (h1 : t.val % 4 = 3) (p q : Fin 1024) :
    (outsAt0 m c t.val t.isLt).1 (ix2 p q)
      = K (X m c) (Wt m c) (XA m c) (Bb m c) (biasRow m c) (ix2 (at16384 (t.val / 16) p) (at4096 (t.val / 4 % 4) q)) := by
  refine (congrFun (PointValues.out_at_last' m c t (by omega) h1) (ix2 p q)).trans ?_
  refine (Payload.finish_apply (iblk m c 2 t) (iblk m c 3 t) _ (iblk m c 4 t) p q).trans ?_
  refine congrArg₂ (· + ·) (congrArg₂ (· + ·) ?_ (Finset.sum_congr rfl fun r _ =>
    congrArg₂ (· * ·) (Blocks.xa_tile_apply m c t p r) (Blocks.b_tile_apply m c t r q))) (Blocks.bias_tile_apply m c t q)
  rw [acc_val m c t.val t.isLt p q, h1]

end Cert.KernelIdeal.Accum

end
-- ==== Proof.Final.lean ====
/-
  From tiles to the whole result.

  The output tile of (row tile i, column tile j) is written back to the [16384, 4096] result once, at the last
  contraction stretch, and it is the tile of the tiled result `K` (previous module).  The 16 × 4 tiles cover the
  result: element (M, O) lies in the tile of i = M / 1024, j = O / 1024, whose last-stretch point is
  16·i + 4·j + 3.  So the result array ends holding `K`.  The program then only regroups the token axis
  ([16384, 4096] → [8, 2048, 4096], the same row-major position), and `K` at token 2048·b + s is the layer's result
  `G` at (b, s) — `K_eq_G` with the entry arrays read at their indices.
-/
import proofs.«174334_j45337674777318_2_alg».proof.Proof.Accum

noncomputable section

open Idealize.ShloMosaic Idealize.ShloMosaic.TcCoe Idealize.SL.Sem Idealize.ShloMosaic.ValueIdx
open Idealize.ShloMosaic.Pipeline (Dat)
open scoped BigOperators

namespace Cert.KernelIdeal.Final

open Cert.KernelIdeal Cert.KernelIdeal.Gen Cert.LoraSpec Cert.KernelIdeal.Entry

variable (m : (ℓ : Loc nD τ sig) → Buf (Elt Ideal) ℓ) (ρ : Dev nD → PrngReg)

/-- The tiled result on core `c`, from the arrays the region finds. -/
abbrev tiled (c : Dev nD) : S16384x4096.Idx → EReal := K (X m c) (Wt m c) (XA m c) (Bb m c) (biasRow m c)

/-- WHAT A LAST-STRETCH POINT WRITES BACK is its tile of the tiled result. -/
theorem flushed_eq (c : Dev nD) (t : Fin cfg0.N) (hf : (cfg0.win 5).flush t = true) :
    (dats m 0 c).flushed 5 t = ((cfg0.win 5).blk t).view.read (Elt Ideal) (tiled m c) := by
  have h1 : t.val % 4 = 3 := (flush0_5 t).mp hf
  have hN := Blocks.lt256 t
  obtain ⟨-, -, -, -, -, -, -, -, -, -, e0, e1⟩ := Blocks.tiles t
  show (cfg0.win 5).cut (grid0.coords t) ((dats m 0 c).after 5 t) = _
  rw [after0_5]
  funext j
  show (outsAt0 m c t.val t.isLt).1 j = tiled m c (((cfg0.win 5).blk t).view.emb j)
  have hj0 : (j 0).val < 1024 := (j 0).isLt
  have hj1 : (j 1).val < 1024 := (j 1).isLt
  refine ((congrArg (outsAt0 m c t.val t.isLt).1 (eq_ix2 (n0 := 1024) (n1 := 1024) j)).trans
    (Accum.out_val m c t h1 (j 0) (j 1))).trans ?_
  refine congrArg (tiled m c) (funext fun a => Fin.ext ?_)
  match a with
  | ⟨0, _⟩ =>
    show (1024 * (t.val / 16) + (j 0).val) % 16384 = win0_5.index t (0 : Fin 2) * 1024 + 1 * (j 0).val
    omega
  | ⟨1, _⟩ =>
    show (1024 * (t.val / 4 % 4) + (j 1).val) % 4096 = win0_5.index t (1 : Fin 2) * 1024 + 1 * (j 1).val
    omega

/-- An element of the result is in point `t`'s output tile iff each coordinate is in the tile's range. -/
theorem mem_tile (t : Fin cfg0.N) (i : S16384x4096.Idx) :
    i ∈ ((cfg0.win 5).blk t).view.set ↔ ∀ a : Fin 2, win0_5.index t a * S1024x1024.size a ≤ (i a).val
      ∧ (i a).val < win0_5.index t a * S1024x1024.size a + S1024x1024.size a := by
  show i ∈ ((View.whole main_v8).slice (win0_5.rect t)).set ↔ _
  rw [View.set_slice_whole, Rect.mem_set_unit]
  exact Iff.rfl

/-- THE TILES COVER THE RESULT. -/
theorem cover (i : S16384x4096.Idx) :
    ∃ t : Fin cfg0.N, (cfg0.win 5).flush t = true ∧ i ∈ ((cfg0.win 5).blk t).view.set := by
  have hi0 : (i 0).val < 16384 := (i 0).isLt
  have hi1 : (i 1).val < 4096 := (i 1).isLt
  have hN : cfg0.N = 256 := N_0
  have key : ∀ t : Fin cfg0.N, t.val = 16 * ((i 0).val / 1024) + 4 * ((i 1).val / 1024) + 3 →
      (cfg0.win 5).flush t = true ∧ i ∈ ((cfg0.win 5).blk t).view.set := by
    intro t ht
    obtain ⟨-, -, -, -, -, -, -, -, -, -, e0, e1⟩ := Blocks.tiles t
    refine ⟨(flush0_5 t).mpr (by omega), ?_⟩
    rw [mem_tile]
    intro a
    match a with
    | ⟨0, _⟩ =>
      show win0_5.index t (0 : Fin 2) * 1024 ≤ (i 0).val ∧ (i 0).val < win0_5.index t (0 : Fin 2) * 1024 + 1024
      omega
    | ⟨1, _⟩ =>
      show win0_5.index t (1 : Fin 2) * 1024 ≤ (i 1).val ∧ (i 1).val < win0_5.index t (1 : Fin 2) * 1024 + 1024
      omega
  exact ⟨⟨16 * ((i 0).val / 1024) + 4 * ((i 1).val / 1024) + 3, by omega⟩, key _ rfl⟩

/-- So the result array ends holding the tiled result. -/
theorem final (c : Dev nD) : (dats m 0 c).arrAt 5 cfg0.N = tiled m c :=
  (dats m 0 c).arrAt_eq_of_cover 5 (tiled m c) (flushed_eq m c) cover

/-- The tiled result with the token axis regrouped is the layer's result of the five arguments. -/
theorem regrouped_eq (c : Dev nD) :
    shapeCast S8x2048x4096 (tiled m c) shapeCasts_S16384x4096_S8x2048x4096
      = G (argX m c) (argA m c) (argB m c) (argW m c) (argBias m c) := by
  funext i
  obtain ⟨b, s, o, rfl⟩ : ∃ (b : Fin 8) (s : Fin 2048) (o : Fin 4096), i = ix3 b s o := ⟨i 0, i 1, i 2, eq_ix3 i⟩
  refine (shapeCast_apply (tiled m c) shapeCasts_S16384x4096_S8x2048x4096 (ix3 b s o) (ix2 (flat b s) o) ?_).trans ?_
  · rw [Shape.rowMajor_val_two, Shape.rowMajor_val_three]
    show (2048 * b.val + s.val) * 4096 + o.val = (b.val * 2048 + s.val) * 4096 + o.val
    omega
  · exact K_eq_G (argX m c) (argA m c) (argB m c) (argW m c) (argBias m c) (X m c) (Wt m c) (XA m c) (Bb m c)
      (biasRow m c) (X_apply m c) (Wt_apply m c) (XA_apply m c) (fun r O => by rw [Bb_eq]) (biasRow_apply m c) b s o

/-- What the program's result buffer holds after the line that follows the region. -/
theorem tail_eq (c : Dev nD) :
    Pipeline.afterTail₀ cfgs (dats m) 0 (V0 m) [hostOps1] c main_v9
      = shapeCast S8x2048x4096 (tiled m c) shapeCasts_S16384x4096_S8x2048x4096 := by
  unfold Pipeline.afterTail₀
  show StableHlo.after hostOps1 _ (Proc.devRef .tc main_v9) = _
  after_results
  have e : Pipeline.withArrays (cfgs 0).spec c (V0 m c) (fun w => (dats m 0 c).arrAt w (cfgs 0).N) (Proc.devRef .tc main_v8)
      = tiled m c :=
    (Pipeline.withArrays_arr spec0 launch0.win.arr_inj c (V0 m c) (fun w => (dats m 0 c).arrAt w cfg0.N) 5).trans (final m c)
  rw [e]
  rfl

/-- THE RUN of the idealized kernel program, read: every execution ends with the result buffer at the layer's
    result of the five arguments, and the arguments as they were. -/
theorem run : θ_run defs (onTc (τ := τ) (main (F := Ideal))) ⟨m, fun _ => 0, ρ⟩ fun r => ∀ c : Dev nD,
      r.2.mem ((c.tc : Thread nD τ).loc main_v9) = G (argX m c) (argA m c) (argB m c) (argW m c) (argBias m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v9 (Pipeline.mem_restRefs_of main_v9 (by decide) (by decide))).trans
        ((tail_eq m c).trans (regrouped_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Final

end
-- ==== Proof.lean ====
/-
  The certificate of the low-rank-corrected dense layer

      out[b, s, o] = Σ_d x[b,s,d] · W[o,d]  +  Σ_r ( Σ_d x[b,s,d] · A[d,r] ) · B[r,o]  +  bias[o]

  computed by a tiled kernel (row tiles × column tiles × four stretches of the contraction axis, an accumulator tile
  carried along the stretches, the rank-16 correction and the bias added at the last stretch) against the plain
  three-einsum reference.

  Over the extended reals both programs compute the same function `G` of the five arguments (Proof/Spec.lean):
  the reference term by term (Proof/RefIsLayer.lean); the kernel because its accumulator is, stretch after stretch,
  the partial dense product (Proof/Accum.lean), the last stretch completes it and adds correction and bias, the
  output tiles cover the result (Proof/Final.lean), and a sum over the whole contraction axis is the sum of the sums
  over its four stretches.  Only commutativity and associativity of addition are used, so the precondition (finite
  inputs) is never opened.  The idealization rewrote nothing, so `preserves` is trivial; the three frame claims are
  the generated frame runs.
-/
import proofs.«174334_j45337674777318_2_alg».proof.Defs
import proofs.«174334_j45337674777318_2_alg».proof.Proof.Gen.Kernel
import proofs.«174334_j45337674777318_2_alg».proof.Proof.Gen.Kernel.Skeleton
import proofs.«174334_j45337674777318_2_alg».proof.Proof.Gen.Kernel.Launch
import proofs.«174334_j45337674777318_2_alg».proof.Proof.Gen.Kernel.Points
import proofs.«174334_j45337674777318_2_alg».proof.Proof.Gen.Kernel.Frame
import proofs.«174334_j45337674777318_2_alg».proof.Proof.Gen.KernelIdeal
import proofs.«174334_j45337674777318_2_alg».proof.Proof.Gen.KernelIdeal.Skeleton
import proofs.«174334_j45337674777318_2_alg».proof.Proof.Gen.KernelIdeal.Launch
import proofs.«174334_j45337674777318_2_alg».proof.Proof.Gen.KernelIdeal.Points
import proofs.«174334_j45337674777318_2_alg».proof.Proof.Gen.KernelIdeal.Frame
import proofs.«174334_j45337674777318_2_alg».proof.Proof.Gen.ReferenceIdeal
import proofs.«174334_j45337674777318_2_alg».proof.Proof.Gen.ReferenceIdeal.Run
import proofs.«174334_j45337674777318_2_alg».proof.Proof.Gen.ReferenceIdeal.Read
import proofs.«174334_j45337674777318_2_alg».proof.Proof.Gen.Pre_finite_inputs
import proofs.«174334_j45337674777318_2_alg».proof.Proof.RefIsLayer
import proofs.«174334_j45337674777318_2_alg».proof.Proof.Final
import Idealize.ShloMosaic.Adequacy
import Idealize.ShloMosaic.Init

noncomputable section

namespace Cert.Proof

open Idealize.ShloMosaic Idealize.SL.Sem Cert.Kernel

/-- The word-level kernel program runs and keeps its arguments: the generated frame run. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is straight-line host code: its generated run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs, from memories agreeing on the arguments, end with the layer's result `G` of those
    arguments. -/
theorem algebraic : Cert.algebraic_KernelIdeal_ReferenceIdeal := by
  intro m ρ m' ρ' _ hagree
  refine ⟨fun c => Cert.LoraSpec.G (Cert.KernelIdeal.Entry.argX m c) (Cert.KernelIdeal.Entry.argA m c)
    (Cert.KernelIdeal.Entry.argB m c) (Cert.KernelIdeal.Entry.argW m c) (Cert.KernelIdeal.Entry.argBias m c),
    Cert.KernelIdeal.Final.run m ρ, ?_⟩
  refine (θ_run Cert.ReferenceIdeal.defs _ _).mono (fun _ h c => ⟨?_, (h c).2⟩)
    (Cert.ReferenceIdeal.Value.run (F := Ideal) m' ρ')
  refine ((h c).1.trans ((Cert.ReferenceIdeal.Read.val_main_v6_eq _ _ _ _ _).trans
    (Cert.ReferenceIdeal.RefValue.result_eq _ _ _ _ _))).trans ?_
  rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
